-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x16x16x16 : Shape := ⟨5, ![32, 64, 16, 16, 16]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S32x64x16x16x16 : S_.BroadcastsInDim S32x64x16x16x16 (![] : Fin 0 → Fin S32x64x16x16x16.rank)
  reducesTo_S32x64x16x16x16_S_d0_1_2_3_4 : S32x64x16x16x16.ReducesTo [0, 1, 2, 3, 4] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x64x16x16x16 .f32) (main_arg1 : FVec F S16x64 .f32) (main_arg2 : FVec F S16 .f32) (main_arg3 : FVec F S64x16 .f32) (main_arg4 : FVec F S64 .f32) : IVec S_ 1 :=
  let main_v0 : FVec F S32x64x16x16x16 .f32 := Host.absf main_arg0
  let main_cst : FVec F S_ .f32 := constant S_ .f32 0x7F800000#32
  let main_v1 : FVec F S32x64x16x16x16 .f32 := broadcastInDim S32x64x16x16x16 ![] bcast_S_S32x64x16x16x16 main_cst
  let main_v2 : IVec S32x64x16x16x16 1 := cmpf .olt main_v0 main_v1
  let main_c : IVec S_ 1 := constantI S_ 1 1#1
  let main_v3 : IVec S_ 1 := (fun x v => Host.reduce IntOp.andi x v reducesTo_S32x64x16x16x16_S_d0_1_2_3_4 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S32x64x16x16x16 : Shape := ⟨5, ![32, 64, 16, 16, 16]⟩
abbrev S16x64 : Shape := ⟨2, ![16, 64]⟩
abbrev S16 : Shape := ⟨1, ![16]⟩
abbrev S64x16 : Shape := ⟨2, ![64, 16]⟩
abbrev S64 : Shape := ⟨1, ![64]⟩
abbrev S32x64x4096 : Shape := ⟨3, ![32, 64, 4096]⟩
abbrev S1x16 : Shape := ⟨2, ![1, 16]⟩
abbrev S64x1 : Shape := ⟨2, ![64, 1]⟩
abbrev S8x64x4096 : Shape := ⟨3, ![8, 64, 4096]⟩
abbrev S8x64 : Shape := ⟨2, ![8, 64]⟩
abbrev S1x64x16 : Shape := ⟨3, ![1, 64, 16]⟩
abbrev S8x64x1 : Shape := ⟨3, ![8, 64, 1]⟩
abbrev S8x64x16 : Shape := ⟨3, ![8, 64, 16]⟩
abbrev S8x16 : Shape := ⟨2, ![8, 16]⟩
abbrev S8x1x16 : Shape := ⟨3, ![8, 1, 16]⟩
abbrev S1x64 : Shape := ⟨2, ![1, 64]⟩

abbrev nBuf : Space → Nat
  | .hbm => 11
  | .vmem => 8
  | .smem => 0
  | _ => 0

abbrev bufTy : (tb : Table) → Fin (tcTables nBuf tb) → BufTy
  | .hbm, ⟨0, _⟩ => ⟨S32x64x16x16x16, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S32x64x4096, .f32⟩
  | .hbm, ⟨6, _⟩ => ⟨S64x16, .f32⟩
  | .hbm, ⟨7, _⟩ => ⟨S1x16, .f32⟩
  | .hbm, ⟨8, _⟩ => ⟨S64x1, .f32⟩
  | .hbm, ⟨9, _⟩ => ⟨S32x64x4096, .f32⟩
  | .hbm, ⟨10, _⟩ => ⟨S32x64x16x16x16, .f32⟩
  | .local _ .vmem, ⟨0, _⟩ => ⟨S64x16, .f32⟩
  | .local _ .vmem, ⟨1, _⟩ => ⟨S1x16, .f32⟩
  | .local _ .vmem, ⟨2, _⟩ => ⟨S64x16, .f32⟩
  | .local _ .vmem, ⟨3, _⟩ => ⟨S64x1, .f32⟩
  | .local _ .vmem, ⟨4, _⟩ => ⟨S8x64x4096, .f32⟩
  | .local _ .vmem, ⟨5, _⟩ => ⟨S8x64x4096, .f32⟩
  | .local _ .vmem, ⟨6, _⟩ => ⟨S8x64x4096, .f32⟩
  | .local _ .vmem, ⟨7, _⟩ => ⟨S8x64x4096, .f32⟩
  | _, _ => ⟨S32x64x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x64x16x16x16_S32x64x4096 : S32x64x16x16x16.ShapeCasts S32x64x4096
  transposes_S16x64_S64x16_1_0 : S16x64.Transposes [1, 0] S64x16
  shapeCasts_S16_S1x16 : S16.ShapeCasts S1x16
  shapeCasts_S64_S64x1 : S64.ShapeCasts S64x1
  inb_S8x64x4096_S8x64x4096_0_0_0 : ∀ a, (![0, 0, 0] : Fin 3 → Nat) a + S8x64x4096.size a ≤ S8x64x4096.size a
  h_S8x64x4096 : 0 < S8x64x4096.numel
  shapeCasts_S8x64x4096_S8x64x4096 : S8x64x4096.ShapeCasts S8x64x4096
  reduces_S8x64x4096_S8x64 : S8x64x4096.Reduces [2] S8x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x16_S1x64x16 : S64x16.ShapeCasts S1x64x16
  shapeCasts_S8x64_S8x64x1 : S8x64.ShapeCasts S8x64x1
  broadcasts_S1x64x16_S8x64x16 : S1x64x16.Broadcasts S8x64x16
  broadcasts_S8x64x1_S8x64x16 : S8x64x1.Broadcasts S8x64x16
  reduces_S8x64x16_S8x16 : S8x64x16.Reduces [1] S8x16
  broadcasts_S1x16_S8x16 : S1x16.Broadcasts S8x16
  shapeCasts_S8x16_S8x1x16 : S8x16.ShapeCasts S8x1x16
  broadcasts_S8x1x16_S8x64x16 : S8x1x16.Broadcasts S8x64x16
  reduces_S8x64x16_S8x64 : S8x64x16.Reduces [2] S8x64
  shapeCasts_S64x1_S64 : S64x1.ShapeCasts S64
  shapeCasts_S64_S1x64 : S64.ShapeCasts S1x64
  broadcasts_S1x64_S8x64 : S1x64.Broadcasts S8x64
  broadcasts_S8x64x1_S8x64x4096 : S8x64x1.Broadcasts S8x64x4096
  shapeCasts_S32x64x4096_S32x64x16x16x16 : S32x64x4096.ShapeCasts S32x64x16x16x16
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16.size a ≤ S64x16.size a
  hwx0_0 : ∀ i : grid0.Coords, EltTy.bits .f32 = 32 ∨ (Rect.block (s := S64x16) S64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64x4096.size a ≤ S32x64x4096.size a
  hwx0_4 : ∀ i : grid0.Coords, EltTy.bits .f32 = 32 ∨ (Rect.block (s := S32x64x4096) S8x64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64x4096.size a ≤ S32x64x4096.size a
  hwx0_5 : ∀ i : grid0.Coords, EltTy.bits .f32 = 32 ∨ (Rect.block (s := S32x64x4096) S8x64x4096.size (cc0_transform_5 i) (hinb0_5 i)).WholeWords (EltTy.packing .f32)

variable [Facts₀]

abbrev win0_0 : Pipeline.Window sig grid0 :=
  Pipeline.Window.ofSpec (Memref.whole main_v1) S64x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x64x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x64x16x16x16 : Shape := ⟨5, ![32, 64, 16, 16, 16]⟩
abbrev S16x64 : Shape := ⟨2, ![16, 64]⟩
abbrev S16 : Shape := ⟨1, ![16]⟩
abbrev S64x16 : Shape := ⟨2, ![64, 16]⟩
abbrev S64 : Shape := ⟨1, ![64]⟩
abbrev S32x64x4096 : Shape := ⟨3, ![32, 64, 4096]⟩
abbrev S1x16 : Shape := ⟨2, ![1, 16]⟩
abbrev S64x1 : Shape := ⟨2, ![64, 1]⟩
abbrev S1x64x4096 : Shape := ⟨3, ![1, 64, 4096]⟩
abbrev S64x4096 : Shape := ⟨2, ![64, 4096]⟩

abbrev nBuf : Space → Nat
  | .hbm => 11
  | .vmem => 8
  | .smem => 0
  | _ => 0

abbrev bufTy : (tb : Table) → Fin (tcTables nBuf tb) → BufTy
  | .hbm, ⟨0, _⟩ => ⟨S32x64x16x16x16, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S32x64x4096, .f32⟩
  | .hbm, ⟨6, _⟩ => ⟨S64x16, .f32⟩
  | .hbm, ⟨7, _⟩ => ⟨S1x16, .f32⟩
  | .hbm, ⟨8, _⟩ => ⟨S64x1, .f32⟩
  | .hbm, ⟨9, _⟩ => ⟨S32x64x4096, .f32⟩
  | .hbm, ⟨10, _⟩ => ⟨S32x64x16x16x16, .f32⟩
  | .local _ .vmem, ⟨0, _⟩ => ⟨S64x16, .f32⟩
  | .local _ .vmem, ⟨1, _⟩ => ⟨S1x16, .f32⟩
  | .local _ .vmem, ⟨2, _⟩ => ⟨S64x16, .f32⟩
  | .local _ .vmem, ⟨3, _⟩ => ⟨S64x1, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | _, _ => ⟨S32x64x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x64x16x16x16_S32x64x4096 : S32x64x16x16x16.ShapeCasts S32x64x4096
  transposes_S16x64_S64x16_1_0 : S16x64.Transposes [1, 0] S64x16
  shapeCasts_S16_S1x16 : S16.ShapeCasts S1x16
  shapeCasts_S64_S64x1 : S64.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16 : S64x1.Broadcasts S64x16
  reduces_S64x16_S16 : S64x16.Reduces [0] S16
  broadcasts_S1x16_S64x16 : S1x16.Broadcasts S64x16
  reduces_S64x16_S64 : S64x16.Reduces [1] S64
  broadcasts_S64x1_S64x4096 : S64x1.Broadcasts S64x4096
  shapeCasts_S64x4096_S1x64x4096 : S64x4096.ShapeCasts S1x64x4096
  shapeCasts_S32x64x4096_S32x64x16x16x16 : S32x64x4096.ShapeCasts S32x64x16x16x16
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16.size a ≤ S64x16.size a
  hwx0_0 : ∀ i : grid0.Coords, EltTy.bits .f32 = 32 ∨ (Rect.block (s := S64x16) S64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x4096.size a ≤ S32x64x4096.size a
  hwx0_4 : ∀ i : grid0.Coords, EltTy.bits .f32 = 32 ∨ (Rect.block (s := S32x64x4096) S1x64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x4096.size a ≤ S32x64x4096.size a
  hwx0_5 : ∀ i : grid0.Coords, EltTy.bits .f32 = 32 ∨ (Rect.block (s := S32x64x4096) S1x64x4096.size (cc0_transform_5 i) (hinb0_5 i)).WholeWords (EltTy.packing .f32)

variable [Facts₀]

abbrev win0_0 : Pipeline.Window sig grid0 :=
  Pipeline.Window.ofSpec (Memref.whole main_v1) S64x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Gate.lean ====
/-
  The channel gate of a squeeze-and-excite block, as one function of a batch entry's slab.

  For one batch entry the block takes the slab `xs c s` (64 channels, 4096 spatial positions), averages every
  channel over its positions, sends the 64 means through a two-layer perceptron (64 → 16 with a rectifier,
  16 → 64) and squashes each of the 64 outputs by the logistic function; the result multiplies every position of
  its channel.  All of it is stated here on the extended reals with plain finite sums, over functions of the
  coordinates, so that a program which lays the same numbers out in another shape (one batch entry per block, or
  eight) can be compared with it coordinate by coordinate.  The mean is the sum times the binary literal
  `0x39800000` (2⁻¹², the reciprocal of 4096), kept as the word both programs print.
-/
import Idealize.ShloMosaic.PureOps.Ideal
import Idealize.ShloMosaic.Lib.ValueIdx

noncomputable section

open scoped BigOperators

namespace Cert.ChannelGate

open Idealize.ShloMosaic Idealize.ShloMosaic.ValueIdx

/-- The mean of channel `c` over the spatial positions: the sum times 2⁻¹². -/
def channelMean (xs : Fin 64 → Fin 4096 → EReal) (c : Fin 64) : EReal :=
  (∑ s : Fin 4096, xs c s) * Ideal.ofBits .f32 0x39800000#32

/-- Hidden unit `h`: the rectified affine image of the 64 means, `max (Σ_c w1t c h · mean c + b1 h) 0`. -/
def hiddenUnit (xs : Fin 64 → Fin 4096 → EReal) (w1t : Fin 64 → Fin 16 → EReal) (b1 : Fin 16 → EReal) (h : Fin 16) : EReal :=
  max ((∑ c : Fin 64, w1t c h * channelMean xs c) + b1 h) (Ideal.ofBits .f32 0x00000000#32)

/-- The second layer at channel `c`: `Σ_h w2 c h · hiddenUnit h + b2 c`. -/
def preGate (xs : Fin 64 → Fin 4096 → EReal) (w1t : Fin 64 → Fin 16 → EReal) (b1 : Fin 16 → EReal)
    (w2 : Fin 64 → Fin 16 → EReal) (b2 : Fin 64 → EReal) (c : Fin 64) : EReal :=
  (∑ h : Fin 16, w2 c h * hiddenUnit xs w1t b1 h) + b2 c

/-- The gate of channel `c`: the logistic function `1 / (1 + exp (0 − z))` of the second layer's output. -/
def gate (xs : Fin 64 → Fin 4096 → EReal) (w1t : Fin 64 → Fin 16 → EReal) (b1 : Fin 16 → EReal)
    (w2 : Fin 64 → Fin 16 → EReal) (b2 : Fin 64 → EReal) (c : Fin 64) : EReal :=
  Ideal.div (Ideal.ofBits .f32 0x3F800000#32)
    (Ideal.ofBits .f32 0x3F800000#32 + Ideal.exp (Ideal.ofBits .f32 0x00000000#32 - preGate xs w1t b1 w2 b2 c))

/-- The block's result at batch entry `n`, channel `c`, position `s`: the input there times its channel's gate,
    the gate computed from entry `n`'s slab alone.  The weights come in the layouts both programs hand to their
    kernels: the first layer transposed to 64 × 16, its bias a 1 × 16 row, the second layer 64 × 16, its bias a
    64 × 1 column. -/
def scaledAt (x : (⟨3, ![32, 64, 4096]⟩ : Shape).Idx → EReal) (w1t : (⟨2, ![64, 16]⟩ : Shape).Idx → EReal)
    (b1 : (⟨2, ![1, 16]⟩ : Shape).Idx → EReal) (w2 : (⟨2, ![64, 16]⟩ : Shape).Idx → EReal)
    (b2 : (⟨2, ![64, 1]⟩ : Shape).Idx → EReal) (n : Fin 32) (c : Fin 64) (s : Fin 4096) : EReal :=
  x (ix3 n c s) * gate (fun c' s' => x (ix3 n c' s')) (fun c' h => w1t (ix2 c' h)) (fun h => b1 (ix2 (0 : Fin 1) h))
    (fun c' h => w2 (ix2 c' h)) (fun c' => b2 (ix2 c' (0 : Fin 1))) c

/-- The whole result array, index by index. -/
def scaled (x : (⟨3, ![32, 64, 4096]⟩ : Shape).Idx → EReal) (w1t : (⟨2, ![64, 16]⟩ : Shape).Idx → EReal)
    (b1 : (⟨2, ![1, 16]⟩ : Shape).Idx → EReal) (w2 : (⟨2, ![64, 16]⟩ : Shape).Idx → EReal)
    (b2 : (⟨2, ![64, 1]⟩ : Shape).Idx → EReal) : (⟨3, ![32, 64, 4096]⟩ : Shape).Idx → EReal :=
  fun i => scaledAt x w1t b1 w2 b2 (i 0) (i 1) (i 2)

/-- At an index written by coordinates the array reads `scaledAt` there. -/
theorem scaled_ix3 (x : (⟨3, ![32, 64, 4096]⟩ : Shape).Idx → EReal) (w1t : (⟨2, ![64, 16]⟩ : Shape).Idx → EReal)
    (b1 : (⟨2, ![1, 16]⟩ : Shape).Idx → EReal) (w2 : (⟨2, ![64, 16]⟩ : Shape).Idx → EReal)
    (b2 : (⟨2, ![64, 1]⟩ : Shape).Idx → EReal) (n : Fin 32) (c : Fin 64) (s : Fin 4096) :
    scaled x w1t b1 w2 b2 (ix3 n c s) = scaledAt x w1t b1 w2 b2 n c s := rfl

/-- The whole program, arguments to result: the spatial axes of the input are flattened to one axis of 4096
    positions, the first-layer weights are transposed and the two biases laid out as a row and a column, the result
    array is `scaled` of these, and its last axis is unfolded back into the three spatial axes. -/
def result (x : (⟨5, ![32, 64, 16, 16, 16]⟩ : Shape).Idx → EReal) (w1 : (⟨2, ![16, 64]⟩ : Shape).Idx → EReal)
    (b1 : (⟨1, ![16]⟩ : Shape).Idx → EReal) (w2 : (⟨2, ![64, 16]⟩ : Shape).Idx → EReal)
    (b2 : (⟨1, ![64]⟩ : Shape).Idx → EReal) : (⟨5, ![32, 64, 16, 16, 16]⟩ : Shape).Idx → EReal :=
  shapeCast ⟨5, ![32, 64, 16, 16, 16]⟩
    (scaled (shapeCast ⟨3, ![32, 64, 4096]⟩ x) (transpose ⟨2, ![64, 16]⟩ [1, 0] w1) (shapeCast ⟨2, ![1, 16]⟩ b1) w2
      (shapeCast ⟨2, ![64, 1]⟩ b2))

end Cert.ChannelGate

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.KernelBody.lean ====
/-
  What the eight-entries-per-block body stores, read at one position.

  The body loads a block of eight batch entries, `x4 (b, c, s)`, and the four small weight arrays whole.  Its stored
  value at `(b, c, s)` is the input there times the gate of channel `c` computed from entry `b`'s slab: every layout
  step of the body (a unit axis appended or inserted, a unit axis stretched) only moves numbers, and its three sums
  run over the positions, the channels and the hidden units of entry `b` alone.
-/
import proofs.«118123_g2000003876969207_pallasbulk_1075_5_alg».proof.Proof.Gen.KernelIdeal.Skeleton
import proofs.«118123_g2000003876969207_pallasbulk_1075_5_alg».proof.Proof.Gate
import proofs.«118123_g2000003876969207_pallasbulk_1075_5_alg».proof.Proof.LibRank3Layout
import proofs.«118123_g2000003876969207_pallasbulk_1075_5_alg».proof.Proof.LibColumnCasts
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen
open Cert.ChannelGate Cert.Rank3Layout Cert.ColumnCasts

/-- The exponential at an index is the exponential of the element. -/
theorem exp_apply {s : Shape} {φ : FTy} (a : FVec Ideal s φ) (i : s.Idx) : exp a i = Ideal.exp (a i) := rfl

/-- The stored value at entry `b` of the block, channel `c`, position `s`. -/
theorem pay_apply (x0 : Vec Ideal S64x16 .f32) (x1 : Vec Ideal S1x16 .f32) (x2 : Vec Ideal S64x16 .f32)
    (x3 : Vec Ideal S64x1 .f32) (x4 : Vec Ideal S8x64x4096 .f32) (b : Fin 8) (c : Fin 64) (s : Fin 4096) :
    k0_pay1 (k0_pay2 x4) (k0_pay3 x4 x0 x1 x2 x3) (ix3 b c s)
      = x4 (ix3 b c s) * gate (fun c' s' => x4 (ix3 b c' s')) (fun c' h => x0 (ix2 c' h)) (fun h => x1 (ix2 (0 : Fin 1) h))
          (fun c' h => x2 (ix2 c' h)) (fun c' => x3 (ix2 c' (0 : Fin 1))) c := by
  unfold k0_pay1 k0_pay3 k0_pay2 gate preGate hiddenUnit channelMean
  simp only [mulf_apply, addf_apply, subf_apply, divf_apply, maximumf_apply, exp_apply, broadcast_apply, shapeCast_self,
    broadcastTo_ab1_abc_apply, shapeCast_ab_ab1_apply, broadcastTo_1b_ab_apply, shapeCast_a_1a_apply, shapeCast_a1_a_apply]
  rw [sumLast_apply]
  refine congrArg (fun z => x4 (ix3 b c s) * Ideal.div (Ideal.ofBits .f32 0x3F800000#32)
    (Ideal.ofBits .f32 0x3F800000#32 + Ideal.exp (Ideal.ofBits .f32 0x00000000#32 - (z + x3 (ix2 c (0 : Fin 1)))))) ?_
  refine Finset.sum_congr rfl fun h _ => ?_
  simp only [mulf_apply, addf_apply, maximumf_apply, broadcast_apply, broadcastTo_1bc_abc_apply, broadcastTo_a1c_abc_apply,
    shapeCast_ab_a1b_apply, shapeCast_ab_1ab_apply, broadcastTo_1b_ab_apply]
  refine congrArg (fun z => x2 (ix2 c h) * max (z + x1 (ix2 (0 : Fin 1) h)) (Ideal.ofBits .f32 0x00000000#32)) ?_
  rw [sumMiddle_apply]
  refine Finset.sum_congr rfl fun c' _ => ?_
  simp only [mulf_apply, broadcast_apply, broadcastTo_1bc_abc_apply, broadcastTo_ab1_abc_apply, shapeCast_ab_1ab_apply,
    shapeCast_ab_ab1_apply]
  rw [sumLast_apply]
  rfl

end Cert.KernelIdeal.Hand

end
-- ==== Proof.KernelBlocks.lean ====
/-
  From the blocks to the whole array.

  The four weight windows hold their whole arrays at every grid point; the input and output windows move in step, point
  `t` covering batch entries `8 t … 8 t + 7` of the [32, 64, 4096] array.  So what point `t` writes back is block `t` of one
  function of the arrays as the region finds them — every entry times its channel's gate, the gate computed from that
  batch entry's own slab — and since the 4 blocks tile the 32 batch entries, the output array ends holding that function.
-/
import proofs.«118123_g2000003876969207_pallasbulk_1075_5_alg».proof.Proof.Gen.KernelIdeal.Frame
import proofs.«118123_g2000003876969207_pallasbulk_1075_5_alg».proof.Proof.KernelBody
import Idealize.ShloMosaic.Lib.Pipeline.Value

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.ChannelGate

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the weight windows stay at block (0, 0); the input and output windows are at
    block `(t, 0, 0)` at point `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The transposed first-layer weights are read whole at every point. -/
theorem iblk0_eq (c : Dev nD) (t : Fin cfg0.N) (y : S64x16.Idx) :
    (iblk m c 0 t : Vec Ideal S64x16 .f32) y = (V m c main_v1 : S64x16.Idx → Elt Ideal .f32) y := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 64 + 1 * (y 0).val = (y 0).val; rw [e0]; omega
  | ⟨1, _⟩ => show win0_0.index t (1 : Fin 2) * 16 + 1 * (y 1).val = (y 1).val; rw [e1]; omega

/-- The first-layer bias row is read whole at every point. -/
theorem iblk1_eq (c : Dev nD) (t : Fin cfg0.N) (y : S1x16.Idx) :
    (iblk m c 1 t : Vec Ideal S1x16 .f32) y = (V m c main_v2 : S1x16.Idx → Elt Ideal .f32) y := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 16 + 1 * (y 1).val = (y 1).val; rw [e1]; omega

/-- The second-layer weights are read whole at every point. -/
theorem iblk2_eq (c : Dev nD) (t : Fin cfg0.N) (y : S64x16.Idx) :
    (iblk m c 2 t : Vec Ideal S64x16 .f32) y = (V m c main_arg3 : S64x16.Idx → Elt Ideal .f32) y := by
  obtain ⟨-, -, -, -, e0, e1, -⟩ := idx_facts t
  unfold iblk
  rw [View.read_apply]
  show V m c main_arg3 _ = V m c main_arg3 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 16 + 1 * (y 1).val = (y 1).val; rw [e1]; omega

/-- The second-layer bias column is read whole at every point. -/
theorem iblk3_eq (c : Dev nD) (t : Fin cfg0.N) (y : S64x1.Idx) :
    (iblk m c 3 t : Vec Ideal S64x1 .f32) y = (V m c main_v3 : S64x1.Idx → Elt Ideal .f32) y := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 1 + 1 * (y 1).val = (y 1).val; rw [e1]; omega

/-- The input block at point `t` holds batch entries `8 t …` of the flattened input: its entry `y` is the array's
    entry `k` whenever `k`'s batch coordinate is `8 t` plus `y`'s and the other two coordinates agree. -/
theorem iblk4_eq (c : Dev nD) (t : Fin cfg0.N) (y : S8x64x4096.Idx) (k : S32x64x4096.Idx)
    (hk0 : (k 0).val = 8 * t.val + (y 0).val) (hk1 : (k 1).val = (y 1).val) (hk2 : (k 2).val = (y 2).val) :
    (iblk m c 4 t : Vec Ideal S8x64x4096 .f32) y = (V m c main_v0 : S32x64x4096.Idx → Elt Ideal .f32) k := by
  obtain ⟨-, -, -, -, -, -, -, -, e0, e1, e2, -⟩ := idx_facts t
  unfold iblk
  rw [View.read_apply]
  show V m c main_v0 _ = V m c main_v0 _
  congr 1
  funext a
  apply Fin.ext
  match a with
  | ⟨0, _⟩ => show win0_4.index t (0 : Fin 3) * 8 + 1 * (y 0).val = (k 0).val; rw [e0, hk0]; omega
  | ⟨1, _⟩ => show win0_4.index t (1 : Fin 3) * 64 + 1 * (y 1).val = (k 1).val; rw [e1, hk1]; omega
  | ⟨2, _⟩ => show win0_4.index t (2 : Fin 3) * 4096 + 1 * (y 2).val = (k 2).val; rw [e2, hk2]; omega

/-- The function the output array ends holding, of the arrays as the region finds them. -/
abbrev target (c : Dev nD) : S32x64x4096.Idx → EReal :=
  scaled (V m c main_v0) (V m c main_v1) (V m c main_v2) (V m c main_arg3) (V m c main_v3)

/-- The stored value of the block at point `t`, entry `j`, is `target` at the array index `i` that `j` sits at:
    the body's value there is the input times the gate of entry `j 0` of the block, which is batch entry `i 0`. -/
theorem block_value (c : Dev nD) (t : Fin cfg0.N) (j : S8x64x4096.Idx) (i : S32x64x4096.Idx)
    (h0 : (i 0).val = 8 * t.val + (j 0).val) (h1 : (i 1).val = (j 1).val) (h2 : (i 2).val = (j 2).val) :
    k0_pay1 (k0_pay2 (iblk m c 4 t)) (k0_pay3 (iblk m c 4 t) (iblk m c 0 t) (iblk m c 1 t) (iblk m c 2 t) (iblk m c 3 t)) j
      = target m c i := by
  obtain ⟨b, ch, s, rfl⟩ : ∃ (b : Fin 8) (ch : Fin 64) (s : Fin 4096), j = ix3 b ch s := ⟨j 0, j 1, j 2, eq_ix3 j⟩
  obtain ⟨n, ch', s', rfl⟩ : ∃ (n : Fin 32) (ch' : Fin 64) (s' : Fin 4096), i = ix3 n ch' s' := ⟨i 0, i 1, i 2, eq_ix3 i⟩
  obtain rfl : ch' = ch := Fin.ext h1
  obtain rfl : s' = s := Fin.ext h2
  have hn : n.val = 8 * t.val + b.val := h0
  rw [pay_apply]
  show _ = scaledAt (V m c main_v0) (V m c main_v1) (V m c main_v2) (V m c main_arg3) (V m c main_v3) n ch' s'
  unfold scaledAt
  have e4 : ∀ (c' : Fin 64) (q : Fin 4096), iblk m c 4 t (ix3 b c' q) = V m c main_v0 (ix3 n c' q) :=
    fun c' q => iblk4_eq m c t (ix3 b c' q) (ix3 n c' q) hn rfl rfl
  have e0 : ∀ (c' : Fin 64) (h : Fin 16), iblk m c 0 t (ix2 c' h) = V m c main_v1 (ix2 c' h) :=
    fun c' h => iblk0_eq m c t (ix2 c' h)
  have e1 : ∀ (h : Fin 16), iblk m c 1 t (ix2 (0 : Fin 1) h) = V m c main_v2 (ix2 (0 : Fin 1) h) :=
    fun h => iblk1_eq m c t (ix2 (0 : Fin 1) h)
  have e2 : ∀ (c' : Fin 64) (h : Fin 16), iblk m c 2 t (ix2 c' h) = V m c main_arg3 (ix2 c' h) :=
    fun c' h => iblk2_eq m c t (ix2 c' h)
  have e3 : ∀ (c' : Fin 64), iblk m c 3 t (ix2 c' (0 : Fin 1)) = V m c main_v3 (ix2 c' (0 : Fin 1)) :=
    fun c' => iblk3_eq m c t (ix2 c' (0 : Fin 1))
  simp only [e4, e0, e1, e2, e3]

/-- WHAT POINT `t` WRITES BACK is block `t` of `target`. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero hz3]
  simp only [View.ld_unit_zero (S := S8x64x4096) hz3, View.ld_unit_zero (S := S64x16) hz2,
    View.ld_unit_zero (S := S1x16) hz2, View.ld_unit_zero (S := S64x1) hz2]
  obtain ⟨-, -, -, -, -, -, -, -, -, -, -, e0, e1, e2⟩ := idx_facts t
  funext j
  refine block_value m c t j (((cfg0.win 5).blk t).view.emb j) ?_ ?_ ?_
  · show win0_5.index t (0 : Fin 3) * 8 + 1 * (j 0).val = 8 * t.val + (j 0).val; rw [e0]; omega
  · show win0_5.index t (1 : Fin 3) * 64 + 1 * (j 1).val = (j 1).val; rw [e1]; omega
  · show win0_5.index t (2 : Fin 3) * 4096 + 1 * (j 2).val = (j 2).val; rw [e2]; omega

/-- An index of the array is in point `t`'s block iff each coordinate is in the block's range on its axis. -/
theorem mem_blk (t : Fin cfg0.N) (i : S32x64x4096.Idx) :
    i ∈ ((cfg0.win 5).blk t).view.set ↔ ∀ a : Fin 3, win0_5.index t a * S8x64x4096.size a ≤ (i a).val
      ∧ (i a).val < win0_5.index t a * S8x64x4096.size a + S8x64x4096.size a := by
  show i ∈ ((View.whole main_v4).slice (win0_5.rect t)).set ↔ _
  rw [View.set_slice_whole, Rect.mem_set_unit]
  exact Iff.rfl

/-- Every index of the array lies in the block of the point its batch coordinate names. -/
theorem covered (i : S32x64x4096.Idx) :
    ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 4096 := (i 2).isLt
  have hN : cfg0.N = 4 := N_0
  have ht : (i 0).val / 8 < cfg0.N := by rw [hN]; omega
  obtain ⟨-, -, -, -, -, -, -, -, -, -, -, e0, e1, e2⟩ := idx_facts ⟨(i 0).val / 8, ht⟩
  have e0' : win0_5.index ⟨(i 0).val / 8, ht⟩ (0 : Fin 3) = (i 0).val / 8 := e0
  refine ⟨⟨(i 0).val / 8, ht⟩, flush0_5 _, ?_⟩
  rw [mem_blk]
  intro a
  match a with
  | ⟨0, _⟩ =>
    show win0_5.index ⟨(i 0).val / 8, ht⟩ (0 : Fin 3) * 8 ≤ (i 0).val
      ∧ (i 0).val < win0_5.index ⟨(i 0).val / 8, ht⟩ (0 : Fin 3) * 8 + 8
    rw [e0']; omega
  | ⟨1, _⟩ =>
    show win0_5.index ⟨(i 0).val / 8, ht⟩ (1 : Fin 3) * 64 ≤ (i 1).val
      ∧ (i 1).val < win0_5.index ⟨(i 0).val / 8, ht⟩ (1 : Fin 3) * 64 + 64
    rw [e1]; omega
  | ⟨2, _⟩ =>
    show win0_5.index ⟨(i 0).val / 8, ht⟩ (2 : Fin 3) * 4096 ≤ (i 2).val
      ∧ (i 2).val < win0_5.index ⟨(i 0).val / 8, ht⟩ (2 : Fin 3) * 4096 + 4096
    rw [e2]; omega

/-- THE OUTPUT ARRAY after the run is `target`. -/
theorem final (c : Dev nD) : (dats m 0 c).arrAt 5 cfg0.N = target m c :=
  (dats m 0 c).arrAt_eq_of_cover 5 (target m c) (fun t _ => flushed_eq m c t) covered

end Cert.KernelIdeal.Hand

end
-- ==== Proof.KernelRun.lean ====
/-
  The whole run of the eight-entries-per-block program, read as one function of its arguments.

  Before the region the program flattens the input's three spatial axes, transposes the first-layer weights and lays
  the two biases out as a row and a column; the region leaves the output array at `target` of those; after it the
  program unfolds the flattened axis again.  So the result is `ChannelGate.result` of the five arguments, which end
  unchanged.
-/
import proofs.«118123_g2000003876969207_pallasbulk_1075_5_alg».proof.Proof.KernelBlocks
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.ChannelGate

variable (m : (ℓ : Loc nD τ sig) → Buf (Elt Ideal) ℓ) (ρ : Dev nD → PrngReg)

/-- The region finds the input with its spatial axes flattened. -/
theorem V_v0 (c : Dev nD) : (V m c main_v0 : S32x64x4096.Idx → EReal)
    = shapeCast S32x64x4096 (m ((c : Thread nD τ).loc main_arg0)) shapeCasts_S32x64x16x16x16_S32x64x4096 := by
  show StableHlo.after hostOps0 (fun b => m (c, b)) (Proc.devRef .tc main_v0) = _
  after_results
  rfl

/-- The region finds the first-layer weights transposed. -/
theorem V_v1 (c : Dev nD) : (V m c main_v1 : S64x16.Idx → EReal)
    = transpose S64x16 [1, 0] (m ((c : Thread nD τ).loc main_arg1)) transposes_S16x64_S64x16_1_0 := by
  show StableHlo.after hostOps0 (fun b => m (c, b)) (Proc.devRef .tc main_v1) = _
  after_results

/-- The region finds the first-layer bias as a row. -/
theorem V_v2 (c : Dev nD) : (V m c main_v2 : S1x16.Idx → EReal)
    = shapeCast S1x16 (m ((c : Thread nD τ).loc main_arg2)) shapeCasts_S16_S1x16 := by
  show StableHlo.after hostOps0 (fun b => m (c, b)) (Proc.devRef .tc main_v2) = _
  after_results
  rfl

/-- The region finds the second-layer bias as a column. -/
theorem V_v3 (c : Dev nD) : (V m c main_v3 : S64x1.Idx → EReal)
    = shapeCast S64x1 (m ((c : Thread nD τ).loc main_arg4)) shapeCasts_S64_S64x1 := by
  show StableHlo.after hostOps0 (fun b => m (c, b)) (Proc.devRef .tc main_v3) = _
  after_results
  rfl

/-- The result buffer after the line that follows the region: the output array, its flattened axis unfolded. -/
theorem tail_eq (c : Dev nD) : Pipeline.afterTail₀ cfgs (dats m) 0 (V0 m) [hostOps1] c main_v5
    = shapeCast S32x64x16x16x16 (target m c) shapeCasts_S32x64x4096_S32x64x16x16x16 := by
  have hw : Pipeline.withArrays (cfgs 0).spec c (V0 m c) (fun w => (dats m 0 c).arrAt w (cfgs 0).N)
      (Proc.devRef .tc main_v4) = target m c :=
    (Pipeline.withArrays_arr spec0 launch0.win.arr_inj c _ _ 5).trans (final m c)
  unfold Pipeline.afterTail₀
  show StableHlo.after hostOps1 _ (Proc.devRef .tc main_v5) = _
  after_results
  rw [hw]
  rfl

/-- That buffer as the one function of the five arguments. -/
theorem tail_result (c : Dev nD) : Pipeline.afterTail₀ cfgs (dats m) 0 (V0 m) [hostOps1] c main_v5
    = result (m ((c : Thread nD τ).loc main_arg0)) (m ((c : Thread nD τ).loc main_arg1))
        (m ((c : Thread nD τ).loc main_arg2)) (m ((c : Thread nD τ).loc main_arg3)) (m ((c : Thread nD τ).loc main_arg4)) := by
  rw [tail_eq]
  unfold target
  rw [V_v0, V_v1, V_v2, V_v3, V_main_arg3]
  rfl

/-- THE RUN: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Hand

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.RefBody.lean ====
/-
  What the one-entry-per-block body stores, read at one position.

  The body loads the slab of one batch entry as a [1, 64, 4096] block, drops the unit axis, and keeps every
  intermediate as a column or a row: the channel means as a 64 × 1 column, the hidden units as a 1 × 16 row.  Its stored
  value at `(0, c, s)` is the input there times the gate of channel `c` computed from that one slab.
-/
import proofs.«118123_g2000003876969207_pallasbulk_1075_5_alg».proof.Proof.Gen.ReferenceIdeal.Skeleton
import proofs.«118123_g2000003876969207_pallasbulk_1075_5_alg».proof.Proof.Gate
import proofs.«118123_g2000003876969207_pallasbulk_1075_5_alg».proof.Proof.LibRank3Layout
import proofs.«118123_g2000003876969207_pallasbulk_1075_5_alg».proof.Proof.LibColumnCasts
import proofs.«118123_g2000003876969207_pallasbulk_1075_5_alg».proof.Proof.LibKeepdims
import Idealize.ShloMosaic.Lib.ValueLayout
import Idealize.ShloMosaic.Lib.Pipeline.Value

noncomputable section

open scoped BigOperators

namespace Cert.ReferenceIdeal.Hand

open Idealize.ShloMosaic Idealize.ShloMosaic.ValueIdx Cert.ReferenceIdeal Cert.ReferenceIdeal.Gen
open Cert.ChannelGate Cert.Rank3Layout Cert.ColumnCasts

/-- The exponential at an index is the exponential of the element. -/
theorem exp_apply {s : Shape} {φ : FTy} (a : FVec Ideal s φ) (i : s.Idx) : exp a i = Ideal.exp (a i) := rfl

/-- The stored value at channel `c`, position `s` of the block's one batch entry. -/
theorem pay_apply (x0 : Vec Ideal S64x16 .f32) (x1 : Vec Ideal S1x16 .f32) (x2 : Vec Ideal S64x16 .f32)
    (x3 : Vec Ideal S64x1 .f32) (x4 : Vec Ideal S1x64x4096 .f32) (u : Fin 1) (c : Fin 64) (s : Fin 4096) :
    k0_pay1 x4 x0 x1 x2 x3 (ix3 u c s)
      = x4 (ix3 (0 : Fin 1) c s) * gate (fun c' s' => x4 (ix3 (0 : Fin 1) c' s')) (fun c' h => x0 (ix2 c' h))
          (fun h => x1 (ix2 (0 : Fin 1) h)) (fun c' h => x2 (ix2 c' h)) (fun c' => x3 (ix2 c' (0 : Fin 1))) c := by
  unfold k0_pay1 gate preGate hiddenUnit channelMean
  simp only [mulf_apply, addf_apply, subf_apply, divf_apply, exp_apply, broadcast_apply, shapeCast_self,
    shapeCast_ab_1ab_apply, shapeCast_1ab_ab_apply, Cert.Keepdims.broadcastTo_a1_ab_apply, shapeCast_a_a1_apply]
  rw [rowSum_apply]
  refine congrArg (fun z => x4 (ix3 (0 : Fin 1) c s) * Ideal.div (Ideal.ofBits .f32 0x3F800000#32)
    (Ideal.ofBits .f32 0x3F800000#32 + Ideal.exp (Ideal.ofBits .f32 0x00000000#32 - (z + x3 (ix2 c (0 : Fin 1)))))) ?_
  refine Finset.sum_congr rfl fun h _ => ?_
  simp only [mulf_apply, addf_apply, maximumf_apply, broadcast_apply, broadcastTo_1b_ab_apply, shapeCast_a_1a_apply]
  refine congrArg (fun z => x2 (ix2 c h) * max (z + x1 (ix2 (0 : Fin 1) h)) (Ideal.ofBits .f32 0x00000000#32)) ?_
  rw [colSum_apply]
  refine Finset.sum_congr rfl fun c' _ => ?_
  simp only [mulf_apply, broadcast_apply, Cert.Keepdims.broadcastTo_a1_ab_apply, shapeCast_a_a1_apply]
  rw [rowSum_apply]
  simp only [shapeCast_1ab_ab_apply]
  rfl

end Cert.ReferenceIdeal.Hand

end
-- ==== Proof.RefBlocks.lean ====
/-
  From the blocks to the whole array.

  The four weight windows hold their whole arrays at every grid point; the input and output windows move in step, point
  `t` covering batch entry `t` of the [32, 64, 4096] array.  So what point `t` writes back is block `t` of one
  function of the arrays as the region finds them — every entry times its channel's gate, the gate computed from that
  batch entry's own slab — and since the 32 blocks tile the 32 batch entries, the output array ends holding that function.
-/
import proofs.«118123_g2000003876969207_pallasbulk_1075_5_alg».proof.Proof.Gen.ReferenceIdeal.Frame
import proofs.«118123_g2000003876969207_pallasbulk_1075_5_alg».proof.Proof.RefBody
import Idealize.ShloMosaic.Lib.Pipeline.Value

noncomputable section

open Idealize.ShloMosaic Idealize.ShloMosaic.TcCoe Idealize.SL.Sem
open Idealize.ShloMosaic.Pipeline (Dat)

namespace Cert.ReferenceIdeal.Hand

open Idealize.ShloMosaic.ValueIdx Cert.ReferenceIdeal Cert.ReferenceIdeal.Gen Cert.ChannelGate

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the weight windows stay at block (0, 0); the input and output windows are at
    block `(t, 0, 0)` at point `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The transposed first-layer weights are read whole at every point. -/
theorem iblk0_eq (c : Dev nD) (t : Fin cfg0.N) (y : S64x16.Idx) :
    (iblk m c 0 t : Vec Ideal S64x16 .f32) y = (V m c main_v1 : S64x16.Idx → Elt Ideal .f32) y := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 64 + 1 * (y 0).val = (y 0).val; rw [e0]; omega
  | ⟨1, _⟩ => show win0_0.index t (1 : Fin 2) * 16 + 1 * (y 1).val = (y 1).val; rw [e1]; omega

/-- The first-layer bias row is read whole at every point. -/
theorem iblk1_eq (c : Dev nD) (t : Fin cfg0.N) (y : S1x16.Idx) :
    (iblk m c 1 t : Vec Ideal S1x16 .f32) y = (V m c main_v2 : S1x16.Idx → Elt Ideal .f32) y := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 16 + 1 * (y 1).val = (y 1).val; rw [e1]; omega

/-- The second-layer weights are read whole at every point. -/
theorem iblk2_eq (c : Dev nD) (t : Fin cfg0.N) (y : S64x16.Idx) :
    (iblk m c 2 t : Vec Ideal S64x16 .f32) y = (V m c main_arg3 : S64x16.Idx → Elt Ideal .f32) y := by
  obtain ⟨-, -, -, -, e0, e1, -⟩ := idx_facts t
  unfold iblk
  rw [View.read_apply]
  show V m c main_arg3 _ = V m c main_arg3 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 16 + 1 * (y 1).val = (y 1).val; rw [e1]; omega

/-- The second-layer bias column is read whole at every point. -/
theorem iblk3_eq (c : Dev nD) (t : Fin cfg0.N) (y : S64x1.Idx) :
    (iblk m c 3 t : Vec Ideal S64x1 .f32) y = (V m c main_v3 : S64x1.Idx → Elt Ideal .f32) y := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 1 + 1 * (y 1).val = (y 1).val; rw [e1]; omega

/-- The input block at point `t` holds batch entry `t` of the flattened input: its entry `y` is the array's
    entry `k` whenever `k`'s batch coordinate is `t` (plus `y`'s, which is 0) and the other two coordinates agree. -/
theorem iblk4_eq (c : Dev nD) (t : Fin cfg0.N) (y : S1x64x4096.Idx) (k : S32x64x4096.Idx)
    (hk0 : (k 0).val = 1 * t.val + (y 0).val) (hk1 : (k 1).val = (y 1).val) (hk2 : (k 2).val = (y 2).val) :
    (iblk m c 4 t : Vec Ideal S1x64x4096 .f32) y = (V m c main_v0 : S32x64x4096.Idx → Elt Ideal .f32) k := by
  obtain ⟨-, -, -, -, -, -, -, -, e0, e1, e2, -⟩ := idx_facts t
  unfold iblk
  rw [View.read_apply]
  show V m c main_v0 _ = V m c main_v0 _
  congr 1
  funext a
  apply Fin.ext
  match a with
  | ⟨0, _⟩ => show win0_4.index t (0 : Fin 3) * 1 + 1 * (y 0).val = (k 0).val; rw [e0, hk0]; omega
  | ⟨1, _⟩ => show win0_4.index t (1 : Fin 3) * 64 + 1 * (y 1).val = (k 1).val; rw [e1, hk1]; omega
  | ⟨2, _⟩ => show win0_4.index t (2 : Fin 3) * 4096 + 1 * (y 2).val = (k 2).val; rw [e2, hk2]; omega

/-- The function the output array ends holding, of the arrays as the region finds them. -/
abbrev target (c : Dev nD) : S32x64x4096.Idx → EReal :=
  scaled (V m c main_v0) (V m c main_v1) (V m c main_v2) (V m c main_arg3) (V m c main_v3)

/-- The stored value of the block at point `t`, entry `j`, is `target` at the array index `i` that `j` sits at:
    the block is batch entry `t`'s slab, and the body's gate is computed from that slab. -/
theorem block_value (c : Dev nD) (t : Fin cfg0.N) (j : S1x64x4096.Idx) (i : S32x64x4096.Idx)
    (h0 : (i 0).val = 1 * t.val + (j 0).val) (h1 : (i 1).val = (j 1).val) (h2 : (i 2).val = (j 2).val) :
    k0_pay1 (iblk m c 4 t) (iblk m c 0 t) (iblk m c 1 t) (iblk m c 2 t) (iblk m c 3 t) j = target m c i := by
  obtain ⟨u, ch, s, rfl⟩ : ∃ (u : Fin 1) (ch : Fin 64) (s : Fin 4096), j = ix3 u ch s := ⟨j 0, j 1, j 2, eq_ix3 j⟩
  obtain ⟨n, ch', s', rfl⟩ : ∃ (n : Fin 32) (ch' : Fin 64) (s' : Fin 4096), i = ix3 n ch' s' := ⟨i 0, i 1, i 2, eq_ix3 i⟩
  obtain rfl : ch' = ch := Fin.ext h1
  obtain rfl : s' = s := Fin.ext h2
  have hu : u.val = 0 := by omega
  have hn : n.val = 1 * t.val + ((0 : Fin 1) : Fin 1).val := by
    have h0' : n.val = 1 * t.val + u.val := h0
    rw [h0', hu]; rfl
  rw [pay_apply]
  show _ = scaledAt (V m c main_v0) (V m c main_v1) (V m c main_v2) (V m c main_arg3) (V m c main_v3) n ch' s'
  unfold scaledAt
  have e4 : ∀ (c' : Fin 64) (q : Fin 4096), iblk m c 4 t (ix3 (0 : Fin 1) c' q) = V m c main_v0 (ix3 n c' q) :=
    fun c' q => iblk4_eq m c t (ix3 (0 : Fin 1) c' q) (ix3 n c' q) hn rfl rfl
  have e0 : ∀ (c' : Fin 64) (h : Fin 16), iblk m c 0 t (ix2 c' h) = V m c main_v1 (ix2 c' h) :=
    fun c' h => iblk0_eq m c t (ix2 c' h)
  have e1 : ∀ (h : Fin 16), iblk m c 1 t (ix2 (0 : Fin 1) h) = V m c main_v2 (ix2 (0 : Fin 1) h) :=
    fun h => iblk1_eq m c t (ix2 (0 : Fin 1) h)
  have e2 : ∀ (c' : Fin 64) (h : Fin 16), iblk m c 2 t (ix2 c' h) = V m c main_arg3 (ix2 c' h) :=
    fun c' h => iblk2_eq m c t (ix2 c' h)
  have e3 : ∀ (c' : Fin 64), iblk m c 3 t (ix2 c' (0 : Fin 1)) = V m c main_v3 (ix2 c' (0 : Fin 1)) :=
    fun c' => iblk3_eq m c t (ix2 c' (0 : Fin 1))
  simp only [e4, e0, e1, e2, e3]

/-- WHAT POINT `t` WRITES BACK is block `t` of `target`. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero hz3]
  simp only [View.ld_unit_zero (S := S1x64x4096) hz3, View.ld_unit_zero (S := S64x16) hz2,
    View.ld_unit_zero (S := S1x16) hz2, View.ld_unit_zero (S := S64x1) hz2]
  obtain ⟨-, -, -, -, -, -, -, -, -, -, -, e0, e1, e2⟩ := idx_facts t
  funext j
  refine block_value m c t j (((cfg0.win 5).blk t).view.emb j) ?_ ?_ ?_
  · show win0_5.index t (0 : Fin 3) * 1 + 1 * (j 0).val = 1 * t.val + (j 0).val; rw [e0]; omega
  · show win0_5.index t (1 : Fin 3) * 64 + 1 * (j 1).val = (j 1).val; rw [e1]; omega
  · show win0_5.index t (2 : Fin 3) * 4096 + 1 * (j 2).val = (j 2).val; rw [e2]; omega

/-- An index of the array is in point `t`'s block iff each coordinate is in the block's range on its axis. -/
theorem mem_blk (t : Fin cfg0.N) (i : S32x64x4096.Idx) :
    i ∈ ((cfg0.win 5).blk t).view.set ↔ ∀ a : Fin 3, win0_5.index t a * S1x64x4096.size a ≤ (i a).val
      ∧ (i a).val < win0_5.index t a * S1x64x4096.size a + S1x64x4096.size a := by
  show i ∈ ((View.whole main_v4).slice (win0_5.rect t)).set ↔ _
  rw [View.set_slice_whole, Rect.mem_set_unit]
  exact Iff.rfl

/-- Every index of the array lies in the block of the point its batch coordinate names. -/
theorem covered (i : S32x64x4096.Idx) :
    ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 4096 := (i 2).isLt
  have hN : cfg0.N = 32 := N_0
  have ht : (i 0).val / 1 < cfg0.N := by rw [hN]; omega
  obtain ⟨-, -, -, -, -, -, -, -, -, -, -, e0, e1, e2⟩ := idx_facts ⟨(i 0).val / 1, ht⟩
  have e0' : win0_5.index ⟨(i 0).val / 1, ht⟩ (0 : Fin 3) = (i 0).val / 1 := e0
  refine ⟨⟨(i 0).val / 1, ht⟩, flush0_5 _, ?_⟩
  rw [mem_blk]
  intro a
  match a with
  | ⟨0, _⟩ =>
    show win0_5.index ⟨(i 0).val / 1, ht⟩ (0 : Fin 3) * 1 ≤ (i 0).val
      ∧ (i 0).val < win0_5.index ⟨(i 0).val / 1, ht⟩ (0 : Fin 3) * 1 + 1
    rw [e0']; omega
  | ⟨1, _⟩ =>
    show win0_5.index ⟨(i 0).val / 1, ht⟩ (1 : Fin 3) * 64 ≤ (i 1).val
      ∧ (i 1).val < win0_5.index ⟨(i 0).val / 1, ht⟩ (1 : Fin 3) * 64 + 64
    rw [e1]; omega
  | ⟨2, _⟩ =>
    show win0_5.index ⟨(i 0).val / 1, ht⟩ (2 : Fin 3) * 4096 ≤ (i 2).val
      ∧ (i 2).val < win0_5.index ⟨(i 0).val / 1, ht⟩ (2 : Fin 3) * 4096 + 4096
    rw [e2]; omega

/-- THE OUTPUT ARRAY after the run is `target`. -/
theorem final (c : Dev nD) : (dats m 0 c).arrAt 5 cfg0.N = target m c :=
  (dats m 0 c).arrAt_eq_of_cover 5 (target m c) (fun t _ => flushed_eq m c t) covered

end Cert.ReferenceIdeal.Hand

end
-- ==== Proof.RefRun.lean ====
/-
  The whole run of the one-entry-per-block program, read as one function of its arguments.

  Before the region the program flattens the input's three spatial axes, transposes the first-layer weights and lays
  the two biases out as a row and a column; the region leaves the output array at `target` of those; after it the
  program unfolds the flattened axis again.  So the result is `ChannelGate.result` of the five arguments, which end
  unchanged.
-/
import proofs.«118123_g2000003876969207_pallasbulk_1075_5_alg».proof.Proof.RefBlocks
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.Hand

open Idealize.ShloMosaic.ValueIdx Cert.ReferenceIdeal Cert.ReferenceIdeal.Gen Cert.ChannelGate

variable (m : (ℓ : Loc nD τ sig) → Buf (Elt Ideal) ℓ) (ρ : Dev nD → PrngReg)

/-- The region finds the input with its spatial axes flattened. -/
theorem V_v0 (c : Dev nD) : (V m c main_v0 : S32x64x4096.Idx → EReal)
    = shapeCast S32x64x4096 (m ((c : Thread nD τ).loc main_arg0)) shapeCasts_S32x64x16x16x16_S32x64x4096 := by
  show StableHlo.after hostOps0 (fun b => m (c, b)) (Proc.devRef .tc main_v0) = _
  after_results
  rfl

/-- The region finds the first-layer weights transposed. -/
theorem V_v1 (c : Dev nD) : (V m c main_v1 : S64x16.Idx → EReal)
    = transpose S64x16 [1, 0] (m ((c : Thread nD τ).loc main_arg1)) transposes_S16x64_S64x16_1_0 := by
  show StableHlo.after hostOps0 (fun b => m (c, b)) (Proc.devRef .tc main_v1) = _
  after_results

/-- The region finds the first-layer bias as a row. -/
theorem V_v2 (c : Dev nD) : (V m c main_v2 : S1x16.Idx → EReal)
    = shapeCast S1x16 (m ((c : Thread nD τ).loc main_arg2)) shapeCasts_S16_S1x16 := by
  show StableHlo.after hostOps0 (fun b => m (c, b)) (Proc.devRef .tc main_v2) = _
  after_results
  rfl

/-- The region finds the second-layer bias as a column. -/
theorem V_v3 (c : Dev nD) : (V m c main_v3 : S64x1.Idx → EReal)
    = shapeCast S64x1 (m ((c : Thread nD τ).loc main_arg4)) shapeCasts_S64_S64x1 := by
  show StableHlo.after hostOps0 (fun b => m (c, b)) (Proc.devRef .tc main_v3) = _
  after_results
  rfl

/-- The result buffer after the line that follows the region: the output array, its flattened axis unfolded. -/
theorem tail_eq (c : Dev nD) : Pipeline.afterTail₀ cfgs (dats m) 0 (V0 m) [hostOps1] c main_v5
    = shapeCast S32x64x16x16x16 (target m c) shapeCasts_S32x64x4096_S32x64x16x16x16 := by
  have hw : Pipeline.withArrays (cfgs 0).spec c (V0 m c) (fun w => (dats m 0 c).arrAt w (cfgs 0).N)
      (Proc.devRef .tc main_v4) = target m c :=
    (Pipeline.withArrays_arr spec0 launch0.win.arr_inj c _ _ 5).trans (final m c)
  unfold Pipeline.afterTail₀
  show StableHlo.after hostOps1 _ (Proc.devRef .tc main_v5) = _
  after_results
  rw [hw]
  rfl

/-- That buffer as the one function of the five arguments. -/
theorem tail_result (c : Dev nD) : Pipeline.afterTail₀ cfgs (dats m) 0 (V0 m) [hostOps1] c main_v5
    = result (m ((c : Thread nD τ).loc main_arg0)) (m ((c : Thread nD τ).loc main_arg1))
        (m ((c : Thread nD τ).loc main_arg2)) (m ((c : Thread nD τ).loc main_arg3)) (m ((c : Thread nD τ).loc main_arg4)) := by
  rw [tail_eq]
  unfold target
  rw [V_v0, V_v1, V_v2, V_v3, V_main_arg3]
  rfl

/-- THE RUN: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.ReferenceIdeal.Hand

end
-- ==== Proof.lean ====
/-
  A squeeze-and-excite block computed eight batch entries per grid point against the same block computed one batch
  entry per grid point: equal results on the extended reals.

  Both programs flatten the input to [32, 64, 4096], transpose the first-layer weights, lay the biases out as a row and
  a column, run one pipelined region over blocks of whole batch entries, and unfold the flattened axis again.  Inside a
  block each of them averages every channel of a batch entry over its 4096 positions (the sum times 2⁻¹²), sends the 64
  means through the perceptron 64 → 16 → 64 with a rectifier in between, applies `1 / (1 + exp (0 − z))`, and scales the
  entry's slab channel by channel.  The gate of a batch entry depends on that entry's slab and on the weights only, so
  it does not matter how many entries share a block: each program's output array is the same function
  (`ChannelGate.scaled`) of the arrays the region finds, and each program's result the same function
  (`ChannelGate.result`) of the five arguments.  The two bodies hold their intermediates in different shapes (a stack of
  eight against columns and rows), which only moves numbers; the three sums run over the same index sets in both, and
  no law of arithmetic beyond that is used, so the finiteness of the inputs is never opened.

  The idealization rewrote nothing, so the word-level program against its idealization asks nothing; the three frame
  claims are the generated frame certificates.
-/
import proofs.«118123_g2000003876969207_pallasbulk_1075_5_alg».proof.Defs
import proofs.«118123_g2000003876969207_pallasbulk_1075_5_alg».proof.Proof.Gen.Kernel
import proofs.«118123_g2000003876969207_pallasbulk_1075_5_alg».proof.Proof.Gen.Kernel.Frame
import proofs.«118123_g2000003876969207_pallasbulk_1075_5_alg».proof.Proof.Gen.KernelIdeal
import proofs.«118123_g2000003876969207_pallasbulk_1075_5_alg».proof.Proof.Gen.KernelIdeal.Frame
import proofs.«118123_g2000003876969207_pallasbulk_1075_5_alg».proof.Proof.Gen.ReferenceIdeal
import proofs.«118123_g2000003876969207_pallasbulk_1075_5_alg».proof.Proof.Gen.ReferenceIdeal.Frame
import proofs.«118123_g2000003876969207_pallasbulk_1075_5_alg».proof.Proof.Gen.Pre_finite_inputs
import proofs.«118123_g2000003876969207_pallasbulk_1075_5_alg».proof.Proof.KernelRun
import proofs.«118123_g2000003876969207_pallasbulk_1075_5_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the one-entry-per-block program. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories that agree on the five arguments both programs end with the result buffer at
    `ChannelGate.result` of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ?_) (Cert.ReferenceIdeal.Hand.run m' ρ')
  obtain ⟨h5, h0, h1, h2, h3, h4⟩ := h c
  obtain ⟨a0, a1, a2, a3, a4⟩ := hagree c
  refine ⟨h5.trans ?_, h0, h1, h2, h3, h4⟩
  rw [a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
